-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S64x384 : Shape := ⟨2, ![64, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x384 : S_.BroadcastsInDim S64x384 (![] : Fin 0 → Fin S64x384.rank)
  reducesTo_S64x384_S_d0_1 : S64x384.ReducesTo [0, 1] S_

variable [Facts]

def fn_part1 {F : FTy → Type} [FloatOps F] (main_arg5 : FVec F S64x384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x384 .f32 := Host.absf main_arg5
  let main_cst_6 : FVec F S_ .f32 := constant S_ .f32 0x7F800000#32
  let main_v20 : FVec F S64x384 .f32 := broadcastInDim S64x384 ![] bcast_S_S64x384 main_cst_6
  let main_v21 : IVec S64x384 1 := cmpf .olt main_v19 main_v20
  let main_c_7 : IVec S_ 1 := constantI S_ 1 1#1
  let main_v22 : IVec S_ 1 := (fun x v => Host.reduce IntOp.andi x v reducesTo_S64x384_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128x128 .f32) (main_arg4 : FVec F S128x128 .f32) (main_arg5 : FVec F S64x384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S64x384 : Shape := ⟨2, ![64, 384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x64 : Shape := ⟨2, ![50000, 64]⟩
abbrev S5000x128 : Shape := ⟨2, ![5000, 128]⟩
abbrev S5000x64 : Shape := ⟨2, ![5000, 64]⟩
abbrev S64x128 : Shape := ⟨2, ![64, 128]⟩
abbrev S128x64 : Shape := ⟨2, ![128, 64]⟩

abbrev nBuf : Space → Nat
  | .hbm => 67
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S64x384, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S64x384, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S64x384_S64x384_0_0 : ∀ a, (![0, 0] : Fin 2 → Nat) a + S64x384.size a ≤ S64x384.size a
  h_S64x384 : 0 < S64x384.numel
  slices_S64x384_o0_0_S64x128 : S64x384.Slices ![0, 0] S64x128
  slices_S64x384_o0_128_S64x128 : S64x384.Slices ![0, 128] S64x128
  slices_S64x384_o0_256_S64x128 : S64x384.Slices ![0, 256] S64x128
  transposes_S128x128_p1_0_S128x128 : S128x128.Transposes [1, 0] S128x128
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x384.size a ≤ S64x384.size a
  hwx0_5 : ∀ i : grid0.Coords, EltTy.bits .f32 = 32 ∨ (Rect.block (s := S64x384) S64x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S64x384 : Shape := ⟨2, ![64, 384]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x384 : Shape := ⟨2, ![50000, 384]⟩
abbrev S384x64 : Shape := ⟨2, ![384, 64]⟩
abbrev S50000x64 : Shape := ⟨2, ![50000, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S64x384, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S128x128, .f32⟩
  | .hbm, ⟨71, _⟩ => ⟨S50000x128, .f32⟩
  | .hbm, ⟨72, _⟩ => ⟨S50000x384, .f32⟩
  | .hbm, ⟨73, _⟩ => ⟨S384x64, .f32⟩
  | .hbm, ⟨74, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  concatenates_S50000x128_S50000x128_S50000x128_S50000x384_d1 : Shape.Concatenates [S50000x128, S50000x128, S50000x128] S50000x384 1
  transposes_S64x384_S384x64_1_0 : S64x384.Transposes [1, 0] S384x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x384_S384x64_S50000x64_1_0_0_1_n_n_wf : DotDims.WF S50000x384 S384x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf

class Facts : Prop extends Facts₀ where

variable [Facts]
-- ==== Proof.Spec.lean ====
/-
  The function both programs compute, stated once over the extended reals.

  For node features `x`, propagated features `px` (both N × 128), three hop weights `w0 w1 w2` (128 × 128, rows are
  output channels) and a read-out weight `wfc` (64 × 384), entry (n, o) of the result is

      Σ_{k<128} (x·w0ᵀ)[n,k] · wfc[o, k] + Σ_{k<128} (px·w1ᵀ)[n,k] · wfc[o, 128+k] + Σ_{k<128} (px·w2ᵀ)[n,k] · wfc[o, 256+k],

  where (a·wᵀ)[n,k] = Σ_{j<128} a[n,j] · w[k,j]. The row count N is a parameter: the same formula describes one row tile
  (N = 5000) and the whole array (N = 50000), because an entry depends on row n of `x` and `px` only.
  Also here: a sum over 384 columns is the sum of its three consecutive stretches of 128 — an identity of commutative
  monoids, so it holds on the extended reals with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- Entry (n, k) of `a · wᵀ`: row `n` of `a` against row `k` of `w`. -/
def proj {N : Nat} (a : (⟨2, ![N, 128]⟩ : Shape).Idx → EReal) (w : (⟨2, ![128, 128]⟩ : Shape).Idx → EReal)
    (n : Fin N) (k : Fin 128) : EReal :=
  ∑ j : Fin 128, a (ix2 n j) * w (ix2 k j)

/-- Column `off + k` of the 384 read-out columns, for a stretch of 128 starting at `off`. -/
def col (off : Nat) (h : off + 128 ≤ 384) (k : Fin 128) : Fin 384 := ⟨off + k.val, by have := k.isLt; omega⟩

/-- Entry (n, o) of the result: the three hops' projections, each against its own stretch of `wfc`'s row `o`. -/
def outAt {N : Nat} (x px : (⟨2, ![N, 128]⟩ : Shape).Idx → EReal) (w0 w1 w2 : (⟨2, ![128, 128]⟩ : Shape).Idx → EReal)
    (wfc : (⟨2, ![64, 384]⟩ : Shape).Idx → EReal) (n : Fin N) (o : Fin 64) : EReal :=
  (∑ k : Fin 128, proj x w0 n k * wfc (ix2 o (col 0 (by omega) k)))
    + (∑ k : Fin 128, proj px w1 n k * wfc (ix2 o (col 128 (by omega) k)))
    + ∑ k : Fin 128, proj px w2 n k * wfc (ix2 o (col 256 (by omega) k))

/-- The result as an array. -/
def out {N : Nat} (x px : (⟨2, ![N, 128]⟩ : Shape).Idx → EReal) (w0 w1 w2 : (⟨2, ![128, 128]⟩ : Shape).Idx → EReal)
    (wfc : (⟨2, ![64, 384]⟩ : Shape).Idx → EReal) : (⟨2, ![N, 64]⟩ : Shape).Idx → EReal :=
  fun i => outAt x px w0 w1 w2 wfc (i 0) (i 1)

theorem out_ix2 {N : Nat} (x px : (⟨2, ![N, 128]⟩ : Shape).Idx → EReal) (w0 w1 w2 : (⟨2, ![128, 128]⟩ : Shape).Idx → EReal)
    (wfc : (⟨2, ![64, 384]⟩ : Shape).Idx → EReal) (n : Fin N) (o : Fin 64) :
    out x px w0 w1 w2 wfc (ix2 n o) = outAt x px w0 w1 w2 wfc n o := rfl

/-- A sum over 384 consecutive columns is the sum of its three stretches of 128 (any commutative monoid). -/
theorem sum_three_stretches {M : Type*} [AddCommMonoid M] (f : Fin 384 → M) :
    ∑ k : Fin 384, f k
      = (∑ k : Fin 128, f (col 0 (by omega) k)) + (∑ k : Fin 128, f (col 128 (by omega) k))
        + ∑ k : Fin 128, f (col 256 (by omega) k) := by
  have h1 : ∑ k : Fin 384, f k = ∑ k : Fin (128 + (128 + 128)), f (Fin.cast (by norm_num) k) :=
    (Fin.sum_congr' f (by norm_num : 128 + (128 + 128) = 384)).symm
  rw [h1, Fin.sum_univ_add, Fin.sum_univ_add, add_assoc]
  refine congrArg₂ (· + ·) ?_ (congrArg₂ (· + ·) ?_ ?_)
  · exact Finset.sum_congr rfl fun k _ => congrArg f (Fin.ext (by simp [col]))
  · exact Finset.sum_congr rfl fun k _ => congrArg f (Fin.ext (by simp [col]))
  · exact Finset.sum_congr rfl fun k _ => congrArg f (Fin.ext (by simp [col]; omega))

end Cert.Spec

end
-- ==== Proof.TilePayload.lean ====
/-
  One row tile of the kernel at the exact values: entry (r, o) of what the body stores is the three hops' projections of
  row r of the tile's features, each against its own stretch of 128 columns of the read-out weight's row o.

  The body is three chains of two matrix products each, added. A product into a zero accumulator, read at an entry, is the
  sum over the one shared axis of the products of the operands' entries; a transpose swaps the two coordinates; a stretch
  of 128 columns starting at column c reads column c + k; every change of float format is the identity at the exact
  values. So the first product of a chain gives (a · wᵀ)[r,k] = Σ_j a[r,j] · w[k,j], the second gives
  Σ_k (a · wᵀ)[r,k] · wfc[o, c + k], and the two additions are already grouped as in the specification.
-/
import proofs.«170589_j65274912964848_1_alg».proof.Proof.Gen.KernelIdeal.Skeleton
import proofs.«170589_j65274912964848_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx
/-- A product of a 5000 x 128 array with a 128 x 128 array into a zero accumulator, read at (r, k):
    the sum over the shared axis. -/
theorem mm1_apply (a : FVec Ideal S5000x128 .bf16) (b : FVec Ideal S128x128 .bf16) (r : Fin 5000) (k : Fin 128) :
    FloatOps.matmul (F := Ideal) dot_S5000x128_S128x128_S5000x128_1_0_0_1_n_n none a b
        (constant (F := Ideal) S5000x128 .f32 0x00000000#32) (ix2 r k)
      = ∑ j : Fin 128, a (ix2 r j) * b (ix2 j k) := by
  refine (Ideal.matmul_constant_zero_apply dot_S5000x128_S128x128_S5000x128_1_0_0_1_n_n none a b (ix2 r k)).trans ?_
  rw [← Equiv.sum_comp (ValueIdx.contrEquiv1 dot_S5000x128_S128x128_S5000x128_1_0_0_1_n_n 128 rfl rfl).symm]
  refine Finset.sum_congr rfl fun j _ => ?_
  have hk := ValueIdx.contrEquiv1_symm_val dot_S5000x128_S128x128_S5000x128_1_0_0_1_n_n 128 rfl rfl j
  have el : dot_S5000x128_S128x128_S5000x128_1_0_0_1_n_n.lhsIdx (ix2 r k)
      ((ValueIdx.contrEquiv1 dot_S5000x128_S128x128_S5000x128_1_0_0_1_n_n 128 rfl rfl).symm j) = ix2 r j :=
    funext fun a => Fin.ext (by
      match a with
      | ⟨0, _⟩ =>
        show (dot_S5000x128_S128x128_S5000x128_1_0_0_1_n_n.lhsIdx _ _ 0).val = r.val
        unfold DotDims.lhsIdx
        rw [dif_neg (show ¬(0 : Fin S5000x128.rank) ∈ dot_S5000x128_S128x128_S5000x128_1_0_0_1_n_n.lhsBatch by decide),
          dif_pos (show (0 : Fin S5000x128.rank) ∈ dot_S5000x128_S128x128_S5000x128_1_0_0_1_n_n.lhsNonContracting by decide)]
        rfl
      | ⟨1, _⟩ =>
        exact (dot_S5000x128_S128x128_S5000x128_1_0_0_1_n_n.lhsIdx_val_of_single rfl (ix2 r k) _).trans hk)
  have er : dot_S5000x128_S128x128_S5000x128_1_0_0_1_n_n.rhsIdx (ix2 r k)
      ((ValueIdx.contrEquiv1 dot_S5000x128_S128x128_S5000x128_1_0_0_1_n_n 128 rfl rfl).symm j) = ix2 j k :=
    funext fun a => Fin.ext (by
      match a with
      | ⟨0, _⟩ =>
        exact (dot_S5000x128_S128x128_S5000x128_1_0_0_1_n_n.rhsIdx_val_of_single rfl (ix2 r k) _).trans hk
      | ⟨1, _⟩ =>
        show (dot_S5000x128_S128x128_S5000x128_1_0_0_1_n_n.rhsIdx _ _ 1).val = k.val
        unfold DotDims.rhsIdx
        rw [dif_neg (show ¬(1 : Fin S128x128.rank) ∈ dot_S5000x128_S128x128_S5000x128_1_0_0_1_n_n.rhsBatch by decide),
          dif_pos (show (1 : Fin S128x128.rank) ∈ dot_S5000x128_S128x128_S5000x128_1_0_0_1_n_n.rhsNonContracting by decide)]
        rfl)
  rw [el, er]

/-- A product of a 5000 x 128 array with a 128 x 64 array into a zero accumulator, read at (r, o):
    the sum over the shared axis. -/
theorem mm2_apply (a : FVec Ideal S5000x128 .bf16) (b : FVec Ideal S128x64 .bf16) (r : Fin 5000) (o : Fin 64) :
    FloatOps.matmul (F := Ideal) dot_S5000x128_S128x64_S5000x64_1_0_0_1_n_n none a b
        (constant (F := Ideal) S5000x64 .f32 0x00000000#32) (ix2 r o)
      = ∑ k : Fin 128, a (ix2 r k) * b (ix2 k o) := by
  refine (Ideal.matmul_constant_zero_apply dot_S5000x128_S128x64_S5000x64_1_0_0_1_n_n none a b (ix2 r o)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r o)
      ((ValueIdx.contrEquiv1 dot_S5000x128_S128x64_S5000x64_1_0_0_1_n_n 128 rfl rfl).symm k) = ix2 r k :=
    funext fun a => Fin.ext (by
      match a with
      | ⟨0, _⟩ =>
        show (dot_S5000x128_S128x64_S5000x64_1_0_0_1_n_n.lhsIdx _ _ 0).val = r.val
        unfold DotDims.lhsIdx
        rw [dif_neg (show ¬(0 : Fin S5000x128.rank) ∈ dot_S5000x128_S128x64_S5000x64_1_0_0_1_n_n.lhsBatch by decide),
          dif_pos (show (0 : Fin S5000x128.rank) ∈ dot_S5000x128_S128x64_S5000x64_1_0_0_1_n_n.lhsNonContracting by decide)]
        rfl
      | ⟨1, _⟩ =>
        exact (dot_S5000x128_S128x64_S5000x64_1_0_0_1_n_n.lhsIdx_val_of_single rfl (ix2 r o) _).trans hk)
  have er : dot_S5000x128_S128x64_S5000x64_1_0_0_1_n_n.rhsIdx (ix2 r o)
      ((ValueIdx.contrEquiv1 dot_S5000x128_S128x64_S5000x64_1_0_0_1_n_n 128 rfl rfl).symm k) = ix2 k o :=
    funext fun a => Fin.ext (by
      match a with
      | ⟨0, _⟩ =>
        exact (dot_S5000x128_S128x64_S5000x64_1_0_0_1_n_n.rhsIdx_val_of_single rfl (ix2 r o) _).trans hk
      | ⟨1, _⟩ =>
        show (dot_S5000x128_S128x64_S5000x64_1_0_0_1_n_n.rhsIdx _ _ 1).val = o.val
        unfold DotDims.rhsIdx
        rw [dif_neg (show ¬(1 : Fin S128x64.rank) ∈ dot_S5000x128_S128x64_S5000x64_1_0_0_1_n_n.rhsBatch by decide),
          dif_pos (show (1 : Fin S128x64.rank) ∈ dot_S5000x128_S128x64_S5000x64_1_0_0_1_n_n.rhsNonContracting by decide)]
        rfl)
  rw [el, er]

/-- The transpose of a 128 x 128 array read at (j, k) is the array at (k, j). -/
theorem tr_w_apply (w : FVec Ideal S128x128 .bf16) (j k : Fin 128) :
    transpose S128x128 [1, 0] w transposes_S128x128_p1_0_S128x128 (ix2 j k) = w (ix2 k j) :=
  transpose_apply [1, 0] w transposes_S128x128_p1_0_S128x128 (ix2 j k) (ix2 k j) (fun b => match b with
    | ⟨0, _⟩ => rfl
    | ⟨1, _⟩ => rfl)

/-- The transpose of a 64 x 128 array read at (k, o) is the array at (o, k). -/
theorem tr_c_apply (c : FVec Ideal S64x128 .bf16) (k : Fin 128) (o : Fin 64) :
    transpose S128x64 [1, 0] c transposes_S64x128_p1_0_S128x64 (ix2 k o) = c (ix2 o k) :=
  transpose_apply [1, 0] c transposes_S64x128_p1_0_S128x64 (ix2 k o) (ix2 o k) (fun b => match b with
    | ⟨0, _⟩ => rfl
    | ⟨1, _⟩ => rfl)

/-- The stretch of 128 columns of a 64 x 384 array that starts at column 0, read at (o, k). -/
theorem sl0_apply (c : FVec Ideal S64x384 .f32) (o : Fin 64) (k : Fin 128) :
    extractStridedSlice S64x128 ![0, 0] c slices_S64x384_o0_0_S64x128 (ix2 o k) = c (ix2 o (Cert.Spec.col 0 (by omega) k)) :=
  extractStridedSlice_apply ![0, 0] c slices_S64x384_o0_0_S64x128 (ix2 o k) (ix2 o (Cert.Spec.col 0 (by omega) k)) (fun a => match a with
    | ⟨0, _⟩ => by show o.val = 0 + o.val; omega
    | ⟨1, _⟩ => by show 0 + k.val = 0 + k.val; rfl)

/-- The stretch that starts at column 128, read at (o, k). -/
theorem sl1_apply (c : FVec Ideal S64x384 .f32) (o : Fin 64) (k : Fin 128) :
    extractStridedSlice S64x128 ![0, 128] c slices_S64x384_o0_128_S64x128 (ix2 o k) = c (ix2 o (Cert.Spec.col 128 (by omega) k)) :=
  extractStridedSlice_apply ![0, 128] c slices_S64x384_o0_128_S64x128 (ix2 o k) (ix2 o (Cert.Spec.col 128 (by omega) k)) (fun a => match a with
    | ⟨0, _⟩ => by show o.val = 0 + o.val; omega
    | ⟨1, _⟩ => by show 128 + k.val = 128 + k.val; rfl)

/-- The stretch that starts at column 256, read at (o, k). -/
theorem sl2_apply (c : FVec Ideal S64x384 .f32) (o : Fin 64) (k : Fin 128) :
    extractStridedSlice S64x128 ![0, 256] c slices_S64x384_o0_256_S64x128 (ix2 o k) = c (ix2 o (Cert.Spec.col 256 (by omega) k)) :=
  extractStridedSlice_apply ![0, 256] c slices_S64x384_o0_256_S64x128 (ix2 o k) (ix2 o (Cert.Spec.col 256 (by omega) k)) (fun a => match a with
    | ⟨0, _⟩ => by show o.val = 0 + o.val; omega
    | ⟨1, _⟩ => by show 256 + k.val = 256 + k.val; rfl)

/-- One hop at (r, o): the rows' projection through the hop weight (rows of the weight are output channels), then
    against a 64 x 128 read-out block. The changes of float format are the identity at the exact values. -/
theorem hop_apply (x : FVec Ideal S5000x128 .f32) (w : FVec Ideal S128x128 .f32) (c : FVec Ideal S64x128 .f32)
    (r : Fin 5000) (o : Fin 64) :
    FloatOps.matmul (F := Ideal) dot_S5000x128_S128x64_S5000x64_1_0_0_1_n_n none
        (truncf .bf16
          (FloatOps.matmul (F := Ideal) dot_S5000x128_S128x128_S5000x128_1_0_0_1_n_n none
            (truncf .bf16 x bitsLt_bf16_f32)
            (transpose S128x128 [1, 0] (truncf .bf16 w bitsLt_bf16_f32) transposes_S128x128_p1_0_S128x128)
            (constant (F := Ideal) S5000x128 .f32 0x00000000#32))
          bitsLt_bf16_f32)
        (transpose S128x64 [1, 0] (truncf .bf16 c bitsLt_bf16_f32) transposes_S64x128_p1_0_S128x64)
        (constant (F := Ideal) S5000x64 .f32 0x00000000#32) (ix2 r o)
      = ∑ k : Fin 128, Cert.Spec.proj (N := 5000) x w r k * c (ix2 o k) := by
  refine (mm2_apply _ _ r o).trans (Finset.sum_congr rfl fun k _ => ?_)
  refine congrArg₂ (· * ·) ?_ ?_
  · refine (truncf_apply _ bitsLt_bf16_f32 (ix2 r k)).trans ?_
    refine (mm1_apply _ _ r k).trans (Finset.sum_congr rfl fun j _ => ?_)
    refine congrArg₂ (· * ·) (truncf_apply x bitsLt_bf16_f32 (ix2 r j)) ?_
    exact (tr_w_apply _ j k).trans (truncf_apply w bitsLt_bf16_f32 (ix2 k j))
  · exact (tr_c_apply _ k o).trans (truncf_apply c bitsLt_bf16_f32 (ix2 o k))

/-- The stored value of one tile, read at (r, o), is the specification's entry for a 5000-row array. -/
theorem pay_apply (x0 x1 : Vec Ideal S5000x128 .f32) (w0 w1 w2 : Vec Ideal S128x128 .f32) (wfc : Vec Ideal S64x384 .f32)
    (r : Fin 5000) (o : Fin 64) :
    k0_pay1 (F := Ideal) x0 x1 w0 w1 w2 wfc (ix2 r o) = Cert.Spec.outAt (N := 5000) x0 x1 w0 w1 w2 wfc r o := by
  have hx1 : shapeCast S5000x128 x1 shapeCasts_S5000x128_S5000x128 = x1 := shapeCast_self x1 _
  unfold k0_pay1 Cert.Spec.outAt
  dsimp only
  refine (addf_apply _ _ (ix2 r o)).trans (congrArg₂ (· + ·) ((addf_apply _ _ (ix2 r o)).trans (congrArg₂ (· + ·) ?_ ?_)) ?_)
  · refine (hop_apply x0 w0 _ r o).trans (Finset.sum_congr rfl fun k _ => congrArg₂ (· * ·) rfl ?_)
    exact sl0_apply wfc o k
  · refine (hop_apply _ w1 _ r o).trans (Finset.sum_congr rfl fun k _ => congrArg₂ (· * ·) ?_ ?_)
    · rw [hx1]
    · exact sl1_apply wfc o k
  · refine (hop_apply _ w2 _ r o).trans (Finset.sum_congr rfl fun k _ => congrArg₂ (· * ·) ?_ ?_)
    · rw [hx1]
    · exact sl2_apply wfc o k

end Cert.KernelIdeal.Tile

end
-- ==== Proof.TileToArray.lean ====
/-
  From row tiles to the whole array: grid point t writes rows 5000·t … 5000·t + 4999 of the result, each entry the
  specification's entry of the same row of the feature arrays, and the ten tiles cover all 50000 rows.
-/
import proofs.«170589_j65274912964848_1_alg».proof.Proof.Gen.KernelIdeal.Value
import proofs.«170589_j65274912964848_1_alg».proof.Proof.Spec
import proofs.«170589_j65274912964848_1_alg».proof.Proof.TilePayload
import Idealize.ShloMosaic.Lib.ValueIdx
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offsets of a whole-buffer rectangle, as the constant function. -/
theorem zero_offsets : (![0, 0] : Fin 2 → Nat) = fun _ => 0 := funext fun a => by fin_cases a <;> rfl

/-! ## An entry of the result depends on one row of the features -/

/-- Entry (n, k) of a · wᵀ reads row n of a only: two arrays that agree on a row give the same projections of it. -/
theorem proj_row {N N' : Nat} (a : (⟨2, ![N, 128]⟩ : Shape).Idx → EReal) (a' : (⟨2, ![N', 128]⟩ : Shape).Idx → EReal)
    (w : (⟨2, ![128, 128]⟩ : Shape).Idx → EReal) (n : Fin N) (n' : Fin N')
    (h : ∀ j : Fin 128, a (ix2 n j) = a' (ix2 n' j)) (k : Fin 128) :
    Cert.Spec.proj a w n k = Cert.Spec.proj a' w n' k := by
  unfold Cert.Spec.proj
  exact Finset.sum_congr rfl fun j _ => by rw [h j]

/-- So entry (n, o) of the result is the same for a row tile and for the whole arrays, at the rows that correspond. -/
theorem outAt_row {N N' : Nat} (x px : (⟨2, ![N, 128]⟩ : Shape).Idx → EReal) (x' px' : (⟨2, ![N', 128]⟩ : Shape).Idx → EReal)
    (w0 w1 w2 : (⟨2, ![128, 128]⟩ : Shape).Idx → EReal) (wfc : (⟨2, ![64, 384]⟩ : Shape).Idx → EReal) (n : Fin N) (n' : Fin N')
    (hx : ∀ j : Fin 128, x (ix2 n j) = x' (ix2 n' j)) (hpx : ∀ j : Fin 128, px (ix2 n j) = px' (ix2 n' j)) (o : Fin 64) :
    Cert.Spec.outAt x px w0 w1 w2 wfc n o = Cert.Spec.outAt x' px' w0 w1 w2 wfc n' o := by
  unfold Cert.Spec.outAt
  simp only [proj_row x x' _ n n' hx, proj_row px px' _ n n' hpx]

/-! ## Where each window's block sits at grid point t -/

/-- The block indices over the ten grid points: the two feature windows and the result window are at row block t,
    column block 0; the four weight windows stay at block (0, 0). -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of the node-feature tile at point t is row 5000·t + r of the array. -/
theorem feature_tile_row (t : Fin cfg0.N) (X : S50000x128.Idx → EReal) (r : Fin 5000) (j : Fin 128)
    (h : 5000 * t.val + r.val < 50000) :
    ((cfg0.win 0).blk t).view.read (Elt Ideal) X (ix2 r j) = X (ix2 ⟨5000 * t.val + r.val, h⟩ j) := by
  obtain ⟨e0, e1, -⟩ := block_indices t
  show X (((cfg0.win 0).blk t).view.emb (ix2 r j)) = X _
  refine congrArg X (funext fun a => Fin.ext ?_)
  match a with
  | ⟨0, _⟩ => show win0_0.index t (0 : Fin 2) * 5000 + 1 * r.val = 5000 * t.val + r.val; omega
  | ⟨1, _⟩ => show win0_0.index t (1 : Fin 2) * 128 + 1 * j.val = j.val; omega

/-- Row r of the propagated-feature tile at point t is row 5000·t + r of the array. -/
theorem propagated_tile_row (t : Fin cfg0.N) (X : S50000x128.Idx → EReal) (r : Fin 5000) (j : Fin 128)
    (h : 5000 * t.val + r.val < 50000) :
    ((cfg0.win 1).blk t).view.read (Elt Ideal) X (ix2 r j) = X (ix2 ⟨5000 * t.val + r.val, h⟩ j) := by
  obtain ⟨-, -, e0, e1, -⟩ := block_indices t
  show X (((cfg0.win 1).blk t).view.emb (ix2 r j)) = X _
  refine congrArg X (funext fun a => Fin.ext ?_)
  match a with
  | ⟨0, _⟩ => show win0_1.index t (0 : Fin 2) * 5000 + 1 * r.val = 5000 * t.val + r.val; omega
  | ⟨1, _⟩ => show win0_1.index t (1 : Fin 2) * 128 + 1 * j.val = j.val; omega

/-- Row r of the result tile at point t is row 5000·t + r of the result array. -/
theorem result_tile_row (t : Fin cfg0.N) (Y : S50000x64.Idx → EReal) (r : Fin 5000) (o : Fin 64)
    (h : 5000 * t.val + r.val < 50000) :
    ((cfg0.win 6).blk t).view.read (Elt Ideal) Y (ix2 r o) = Y (ix2 ⟨5000 * t.val + r.val, h⟩ o) := by
  obtain ⟨-, -, -, -, -, -, -, -, -, -, -, -, e0, e1⟩ := block_indices t
  show Y (((cfg0.win 6).blk t).view.emb (ix2 r o)) = Y _
  refine congrArg Y (funext fun a => Fin.ext ?_)
  match a with
  | ⟨0, _⟩ => show win0_6.index t (0 : Fin 2) * 5000 + 1 * r.val = 5000 * t.val + r.val; omega
  | ⟨1, _⟩ => show win0_6.index t (1 : Fin 2) * 64 + 1 * o.val = o.val; omega

/-- The first hop weight's block at every point is the whole weight. -/
theorem weight0_whole (t : Fin cfg0.N) (W : S128x128.Idx → EReal) : ((cfg0.win 2).blk t).view.read (Elt Ideal) W = W := by
  obtain ⟨-, -, -, -, e0, e1, -⟩ := block_indices t
  funext y
  show W (((cfg0.win 2).blk t).view.emb y) = W y
  refine congrArg W (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second hop weight's block at every point is the whole weight. -/
theorem weight1_whole (t : Fin cfg0.N) (W : S128x128.Idx → EReal) : ((cfg0.win 3).blk t).view.read (Elt Ideal) W = W := by
  obtain ⟨-, -, -, -, -, -, e0, e1, -⟩ := block_indices t
  funext y
  show W (((cfg0.win 3).blk t).view.emb y) = W y
  refine congrArg W (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The third hop weight's block at every point is the whole weight. -/
theorem weight2_whole (t : Fin cfg0.N) (W : S128x128.Idx → EReal) : ((cfg0.win 4).blk t).view.read (Elt Ideal) W = W := by
  obtain ⟨-, -, -, -, -, -, -, -, e0, e1, -⟩ := block_indices t
  funext y
  show W (((cfg0.win 4).blk t).view.emb y) = W y
  refine congrArg W (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The read-out weight's block at every point is the whole weight. -/
theorem readout_whole (t : Fin cfg0.N) (W : S64x384.Idx → EReal) : ((cfg0.win 5).blk t).view.read (Elt Ideal) W = W := by
  obtain ⟨-, -, -, -, -, -, -, -, -, -, e0, e1, -⟩ := block_indices t
  funext y
  show W (((cfg0.win 5).blk t).view.emb y) = W y
  refine congrArg W (funext fun a => Fin.ext ?_)
  match a with
  | ⟨0, _⟩ => show win0_5.index t (0 : Fin 2) * 64 + 1 * (y 0).val = (y 0).val; omega
  | ⟨1, _⟩ => show win0_5.index t (1 : Fin 2) * 384 + 1 * (y 1).val = (y 1).val; omega

/-- The result window writes back all 5000 × 64 entries of its tile: the part written, read at (r, o), is the tile's
    entry (r, o). -/
theorem written_part_apply (t : Fin cfg0.N) (P : S5000x64.Idx → EReal) (r : Fin 5000) (o : Fin 64) :
    (cfg0.win 6).cut (grid0.coords t) P (ix2 r o) = P (ix2 r o) := by
  show P ((cfg0.win 6).xinj (grid0.coords t) (ix2 r o)) = P (ix2 r o)
  refine congrArg P (funext fun a => Fin.ext ?_)
  match a with
  | ⟨0, _⟩ => rfl
  | ⟨1, _⟩ => rfl

/-! ## What point t writes is tile t of the specification -/

/-- Entry (r, o) of what point t writes, for any arrays the windows read: the body's entry of the tiles is the
    specification's entry at row r of the tiles, the tiles' row r is the arrays' row 5000·t + r and the weights are whole,
    so it is the specification's entry (5000·t + r, o) of the arrays, which is where the result tile's entry sits. -/
theorem tile_entry (t : Fin cfg0.N) (X PX : S50000x128.Idx → EReal) (W0 W1 W2 : S128x128.Idx → EReal) (WFC : S64x384.Idx → EReal)
    (r : Fin 5000) (o : Fin 64) :
    (cfg0.win 6).cut (grid0.coords t) (k0_pay1 (F := Ideal) (((cfg0.win 0).blk t).view.read (Elt Ideal) X) (((cfg0.win 1).blk t).view.read (Elt Ideal) PX)
        (((cfg0.win 2).blk t).view.read (Elt Ideal) W0) (((cfg0.win 3).blk t).view.read (Elt Ideal) W1)
        (((cfg0.win 4).blk t).view.read (Elt Ideal) W2) (((cfg0.win 5).blk t).view.read (Elt Ideal) WFC)) (ix2 r o)
      = ((cfg0.win 6).blk t).view.read (Elt Ideal) (Cert.Spec.out (N := 50000) X PX W0 W1 W2 WFC) (ix2 r o) := by
  have hN : cfg0.N = 10 := N_0
  have hr : 5000 * t.val + r.val < 50000 := by have := t.isLt; have := r.isLt; omega
  rw [weight0_whole t W0, weight1_whole t W1, weight2_whole t W2, readout_whole t WFC, written_part_apply, Tile.pay_apply,
    result_tile_row t _ r o hr, Cert.Spec.out_ix2]
  exact outAt_row _ _ X PX W0 W1 W2 WFC r ⟨_, hr⟩ (fun j => feature_tile_row t X r j hr) (fun j => propagated_tile_row t PX r j hr) o

/-- The same for the whole tile. -/
theorem tile_eq (t : Fin cfg0.N) (X PX : S50000x128.Idx → EReal) (W0 W1 W2 : S128x128.Idx → EReal) (WFC : S64x384.Idx → EReal) :
    (cfg0.win 6).cut (grid0.coords t) (k0_pay1 (F := Ideal) (((cfg0.win 0).blk t).view.read (Elt Ideal) X) (((cfg0.win 1).blk t).view.read (Elt Ideal) PX)
        (((cfg0.win 2).blk t).view.read (Elt Ideal) W0) (((cfg0.win 3).blk t).view.read (Elt Ideal) W1)
        (((cfg0.win 4).blk t).view.read (Elt Ideal) W2) (((cfg0.win 5).blk t).view.read (Elt Ideal) WFC))
      = ((cfg0.win 6).blk t).view.read (Elt Ideal) (Cert.Spec.out (N := 50000) X PX W0 W1 W2 WFC) :=
  funext fun y => by
    rw [eq_ix2 (n0 := 5000) (n1 := 64) y]
    exact tile_entry t X PX W0 W1 W2 WFC (y 0) (y 1)

/-- What grid point t writes back is tile t of the specification of the arrays the region found: the body's one store
    covers its buffer and its six loads read whole blocks, so the buffer holds the body's function of the six blocks. -/
theorem flushed_eq (c : Dev nD) (t : Fin cfg0.N) :
    (dats m 0 c).flushed 6 t = ((cfg0.win 6).blk t).view.read (Elt Ideal)
      (Cert.Spec.out (N := 50000) (V m c main_arg0) (V m c main_v42) (V m c main_arg2) (V m c main_arg3) (V m c main_arg4) (V m c main_arg5)) := by
  rw [Value.flushed6]
  unfold out0_6
  rw [View.canon_unit_zero zero_offsets]
  simp only [View.ld_unit_zero (S := S5000x128) zero_offsets, View.ld_unit_zero (S := S128x128) zero_offsets,
    View.ld_unit_zero (S := S64x384) zero_offsets]
  unfold iblk
  exact tile_eq t _ _ _ _ _ _

/-! ## The ten tiles cover the 50000 rows -/

/-- An index of the result array is in point t's tile iff each coordinate is in the tile's range on its axis. -/
theorem mem_tile (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v43).slice (win0_6.rect t)).set ↔ _
  rw [View.set_slice_whole, Rect.mem_set_unit]
  exact Iff.rfl

/-- Row n of the result lies in the tile of point n / 5000, and every point writes its tile back. -/
theorem tiles_cover (i : S50000x64.Idx) : ∃ t : Fin cfg0.N, (cfg0.win 6).flush t = true ∧ i ∈ ((cfg0.win 6).blk t).view.set := by
  have hN : cfg0.N = 10 := N_0
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := block_indices t
  refine ⟨t, flush0_6 t, ?_⟩
  rw [mem_tile]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the run the result array is the specification of the arrays the region found: the node features, the propagated
    features the host prefix computed, and the four weights. -/
theorem final (c : Dev nD) :
    (dats m 0 c).arrAt 6 cfg0.N
      = Cert.Spec.out (N := 50000) (V m c main_arg0) (V m c main_v42) (V m c main_arg2) (V m c main_arg3) (V m c main_arg4) (V m c main_arg5) :=
  (dats m 0 c).arrAt_eq_of_cover 6 _ (fun t _ => flushed_eq m c t) tiles_cover

/-- The kernel program's run with its result named by the specification, the arguments unchanged. -/
theorem run : θ_run defs (onTc (τ := τ) (main (F := Ideal))) ⟨m, fun _ => 0, ρ⟩ fun r => ∀ c : Dev nD,
      r.2.mem ((c : Thread nD τ).loc main_v43)
        = Cert.Spec.out (N := 50000) (m ((c : Thread nD τ).loc main_arg0)) (V m c main_v42) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by
      rw [V_main_arg0 m c, V_main_arg2 m c, V_main_arg3 m c, V_main_arg4 m c, V_main_arg5 m c])), (h c).2⟩)
    (Value.run_blocks m ρ)

end Cert.KernelIdeal.Whole

end
-- ==== Proof.PrefixValue.lean ====
/-
  The propagated features the kernel's region finds are the reference's: both programs compute them by the same chain of
  host operations (in-degrees by a scatter-add of ones, their inverse square roots where positive, the edge weights as
  products of two gathered entries, the weighted gathered rows scatter-added into the target nodes) applied to the node
  features and the edge list, so the two values are one function of those two arguments.
-/
import proofs.«170589_j65274912964848_1_alg».proof.Proof.Gen.KernelIdeal.Frame
import proofs.«170589_j65274912964848_1_alg».proof.Proof.RefReadP
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

/-!
  The host operations before the region come in five consecutive stretches. Each stretch is read from ANY contents `W` of the
  buffers it starts from: what it leaves in a buffer it writes is the reference's stage of the same name, as a function of what
  `W` holds in the buffers the stretch reads; a buffer it does not write keeps what `W` held. Composing the five readings
  from the launch contents gives the propagated features as the reference's stage of the two arguments.
-/

/-! ## First stretch: the edge list's two rows, the in-degrees, where they are positive -/

set_option maxHeartbeats 400000 in
/-- The source row of the edge list, flattened. -/
theorem stretch0_sources (W : Valuation τ sig (Elt Ideal)) :
    after hostOps0 W (Proc.devRef .tc main_v1) = Cert.ReferenceIdeal.ReadP.val_main_v1 (F := Ideal) (W (Proc.devRef .tc main_arg1)) := by
  dsimp only [hostOps0]
  after_results_simp
  rfl

set_option maxHeartbeats 400000 in
/-- The target row of the edge list, flattened. -/
theorem stretch0_targets (W : Valuation τ sig (Elt Ideal)) :
    after hostOps0 W (Proc.devRef .tc main_v3) = Cert.ReferenceIdeal.ReadP.val_main_v3 (F := Ideal) (W (Proc.devRef .tc main_arg1)) := by
  dsimp only [hostOps0]
  after_results_simp
  rfl

set_option maxHeartbeats 400000 in
/-- The in-degrees: ones scatter-added at the targets into zeros. -/
theorem stretch0_degree (W : Valuation τ sig (Elt Ideal)) :
    after hostOps0 W (Proc.devRef .tc main_v7) = Cert.ReferenceIdeal.ReadP.val_main_v7 (F := Ideal) (W (Proc.devRef .tc main_arg1)) := by
  dsimp only [hostOps0]
  after_results_simp
  rfl

set_option maxHeartbeats 400000 in
/-- Where the in-degree is positive (the outer test). -/
theorem stretch0_positive (W : Valuation τ sig (Elt Ideal)) :
    after hostOps0 W (Proc.devRef .tc main_v9) = Cert.ReferenceIdeal.ReadP.val_main_v9 (F := Ideal) (W (Proc.devRef .tc main_arg1)) := by
  dsimp only [hostOps0]
  after_results_simp
  rfl

set_option maxHeartbeats 400000 in
/-- Where the in-degree is positive (the inner test). -/
theorem stretch0_positive_inner (W : Valuation τ sig (Elt Ideal)) :
    after hostOps0 W (Proc.devRef .tc main_v11) = Cert.ReferenceIdeal.ReadP.val_main_v11 (F := Ideal) (W (Proc.devRef .tc main_arg1)) := by
  dsimp only [hostOps0]
  after_results_simp
  rfl

set_option maxHeartbeats 400000 in
/-- The constant one that replaces a zero in-degree under the root. -/
theorem stretch0_one (W : Valuation τ sig (Elt Ideal)) :
    after hostOps0 W (Proc.devRef .tc main_cst_3) = Cert.ReferenceIdeal.ReadP.val_main_cst_3 (F := Ideal) := by
  dsimp only [hostOps0]
  after_results_simp
  rfl

set_option maxHeartbeats 400000 in
/-- The first stretch does not write the node features. -/
theorem stretch0_features (W : Valuation τ sig (Elt Ideal)) :
    after hostOps0 W (Proc.devRef .tc main_arg0) = W (Proc.devRef .tc main_arg0) := by
  dsimp only [hostOps0]
  after_results_simp

/-! ## Second stretch: the in-degree where positive, one elsewhere -/

set_option maxHeartbeats 400000 in
/-- The guarded in-degree, from the degree, the inner test and the constant one. -/
theorem stretch1_guarded_degree (W : Valuation τ sig (Elt Ideal)) (x1 : (⟨Cert.ReferenceIdeal.S2x800000, .i32⟩ : BufTy).Contents (Elt Ideal))
    (h11 : W (Proc.devRef .tc main_v11) = Cert.ReferenceIdeal.ReadP.val_main_v11 (F := Ideal) x1) (h7 : W (Proc.devRef .tc main_v7) = Cert.ReferenceIdeal.ReadP.val_main_v7 (F := Ideal) x1)
    (hc : W (Proc.devRef .tc main_cst_3) = Cert.ReferenceIdeal.ReadP.val_main_cst_3 (F := Ideal)) :
    after hostOps0_1 W (Proc.devRef .tc main_v12) = Cert.ReferenceIdeal.ReadP.val_main_v12 (F := Ideal) x1 := by
  dsimp only [hostOps0_1]
  after_results_simp
  simp only [TRef.toBuf, TRef.ofBuf, cast_eq]
  rw [h11, h7, hc]
  rfl

set_option maxHeartbeats 400000 in
/-- The second stretch does not write the sources. -/
theorem stretch1_sources (W : Valuation τ sig (Elt Ideal)) :
    after hostOps0_1 W (Proc.devRef .tc main_v1) = W (Proc.devRef .tc main_v1) := by
  dsimp only [hostOps0_1]
  after_results_simp

set_option maxHeartbeats 400000 in
/-- The second stretch does not write the targets. -/
theorem stretch1_targets (W : Valuation τ sig (Elt Ideal)) :
    after hostOps0_1 W (Proc.devRef .tc main_v3) = W (Proc.devRef .tc main_v3) := by
  dsimp only [hostOps0_1]
  after_results_simp

set_option maxHeartbeats 400000 in
/-- The second stretch does not write the outer test. -/
theorem stretch1_positive (W : Valuation τ sig (Elt Ideal)) :
    after hostOps0_1 W (Proc.devRef .tc main_v9) = W (Proc.devRef .tc main_v9) := by
  dsimp only [hostOps0_1]
  after_results_simp

set_option maxHeartbeats 400000 in
/-- The second stretch does not write the node features. -/
theorem stretch1_features (W : Valuation τ sig (Elt Ideal)) :
    after hostOps0_1 W (Proc.devRef .tc main_arg0) = W (Proc.devRef .tc main_arg0) := by
  dsimp only [hostOps0_1]
  after_results_simp

/-! ## Third stretch: the inverse square root -/

set_option maxHeartbeats 400000 in
/-- The inverse square root of the guarded in-degree. -/
theorem stretch2_inv_sqrt (W : Valuation τ sig (Elt Ideal)) (x1 : (⟨Cert.ReferenceIdeal.S2x800000, .i32⟩ : BufTy).Contents (Elt Ideal))
    (h12 : W (Proc.devRef .tc main_v12) = Cert.ReferenceIdeal.ReadP.val_main_v12 (F := Ideal) x1) :
    after hostOps0_2 W (Proc.devRef .tc main_v13) = Cert.ReferenceIdeal.ReadP.val_main_v13 (F := Ideal) x1 := by
  dsimp only [hostOps0_2]
  after_results_simp
  rw [h12]
  rfl

set_option maxHeartbeats 400000 in
/-- The constant zero that stands where the in-degree is not positive. -/
theorem stretch2_zero (W : Valuation τ sig (Elt Ideal)) :
    after hostOps0_2 W (Proc.devRef .tc main_cst_4) = Cert.ReferenceIdeal.ReadP.val_main_cst_4 (F := Ideal) := by
  dsimp only [hostOps0_2]
  after_results_simp
  rfl

set_option maxHeartbeats 400000 in
/-- The third stretch does not write the sources. -/
theorem stretch2_sources (W : Valuation τ sig (Elt Ideal)) :
    after hostOps0_2 W (Proc.devRef .tc main_v1) = W (Proc.devRef .tc main_v1) := by
  dsimp only [hostOps0_2]
  after_results_simp

set_option maxHeartbeats 400000 in
/-- The third stretch does not write the targets. -/
theorem stretch2_targets (W : Valuation τ sig (Elt Ideal)) :
    after hostOps0_2 W (Proc.devRef .tc main_v3) = W (Proc.devRef .tc main_v3) := by
  dsimp only [hostOps0_2]
  after_results_simp

set_option maxHeartbeats 400000 in
/-- The third stretch does not write the outer test. -/
theorem stretch2_positive (W : Valuation τ sig (Elt Ideal)) :
    after hostOps0_2 W (Proc.devRef .tc main_v9) = W (Proc.devRef .tc main_v9) := by
  dsimp only [hostOps0_2]
  after_results_simp

set_option maxHeartbeats 400000 in
/-- The third stretch does not write the node features. -/
theorem stretch2_features (W : Valuation τ sig (Elt Ideal)) :
    after hostOps0_2 W (Proc.devRef .tc main_arg0) = W (Proc.devRef .tc main_arg0) := by
  dsimp only [hostOps0_2]
  after_results_simp

/-! ## Fourth stretch: the normaliser, the inverse root where the in-degree is positive and zero elsewhere -/

set_option maxHeartbeats 400000 in
/-- The normaliser, from the outer test, the inverse root and the constant zero. -/
theorem stretch3_normaliser (W : Valuation τ sig (Elt Ideal)) (x1 : (⟨Cert.ReferenceIdeal.S2x800000, .i32⟩ : BufTy).Contents (Elt Ideal))
    (h9 : W (Proc.devRef .tc main_v9) = Cert.ReferenceIdeal.ReadP.val_main_v9 (F := Ideal) x1) (h13 : W (Proc.devRef .tc main_v13) = Cert.ReferenceIdeal.ReadP.val_main_v13 (F := Ideal) x1)
    (hc : W (Proc.devRef .tc main_cst_4) = Cert.ReferenceIdeal.ReadP.val_main_cst_4 (F := Ideal)) :
    after hostOps0_3 W (Proc.devRef .tc main_v14) = Cert.ReferenceIdeal.ReadP.val_main_v14 (F := Ideal) x1 := by
  dsimp only [hostOps0_3]
  after_results_simp
  simp only [TRef.toBuf, TRef.ofBuf, cast_eq]
  rw [h9, h13, hc]
  rfl

set_option maxHeartbeats 400000 in
/-- The fourth stretch does not write the sources. -/
theorem stretch3_sources (W : Valuation τ sig (Elt Ideal)) :
    after hostOps0_3 W (Proc.devRef .tc main_v1) = W (Proc.devRef .tc main_v1) := by
  dsimp only [hostOps0_3]
  after_results_simp

set_option maxHeartbeats 400000 in
/-- The fourth stretch does not write the targets. -/
theorem stretch3_targets (W : Valuation τ sig (Elt Ideal)) :
    after hostOps0_3 W (Proc.devRef .tc main_v3) = W (Proc.devRef .tc main_v3) := by
  dsimp only [hostOps0_3]
  after_results_simp

set_option maxHeartbeats 400000 in
/-- The fourth stretch does not write the node features. -/
theorem stretch3_features (W : Valuation τ sig (Elt Ideal)) :
    after hostOps0_3 W (Proc.devRef .tc main_arg0) = W (Proc.devRef .tc main_arg0) := by
  dsimp only [hostOps0_3]
  after_results_simp

/-! ## Fifth stretch: the edge weights, the weighted gathered rows, their scatter-add into the targets -/

set_option maxHeartbeats 1000000 in
/-- The propagated features, from the node features, the two rows of the edge list and the normaliser: an edge's weight is
    the product of the normaliser's entries at its two ends, the row gathered at its source is scaled by the weight and
    scatter-added at its target into zeros. -/
theorem stretch4_propagated (W : Valuation τ sig (Elt Ideal)) (x0 : (⟨Cert.ReferenceIdeal.S50000x128, .f32⟩ : BufTy).Contents (Elt Ideal)) (x1 : (⟨Cert.ReferenceIdeal.S2x800000, .i32⟩ : BufTy).Contents (Elt Ideal))
    (h0 : W (Proc.devRef .tc main_arg0) = x0) (h1 : W (Proc.devRef .tc main_v1) = Cert.ReferenceIdeal.ReadP.val_main_v1 (F := Ideal) x1)
    (h3 : W (Proc.devRef .tc main_v3) = Cert.ReferenceIdeal.ReadP.val_main_v3 (F := Ideal) x1) (h14 : W (Proc.devRef .tc main_v14) = Cert.ReferenceIdeal.ReadP.val_main_v14 (F := Ideal) x1) :
    after hostOps0_4 W (Proc.devRef .tc main_v42) = Cert.ReferenceIdeal.ReadP.val_main_v42 (F := Ideal) x0 x1 := by
  dsimp only [hostOps0_4]
  after_results_simp
  rw [h0, h1, h3, h14]
  rfl

/-! ## The five stretches in a row -/

/-- What the region finds in the propagated-features array is the reference's propagated-features stage of the launch
    contents of the node features and the edge list. -/
theorem px_eq (m : (ℓ : Loc nD τ sig) → Buf (Elt Ideal) ℓ) (c : Dev nD) :
    V m c main_v42
      = Cert.ReferenceIdeal.ReadP.val_main_v42 (F := Ideal) (m ((c : Thread nD τ).loc main_arg0)) (m ((c : Thread nD τ).loc main_arg1)) := by
  dsimp only [V]
  rw [List.flatten_cons, List.flatten_cons, List.flatten_cons, List.flatten_cons, List.flatten_cons, List.flatten_nil, List.append_nil,
    StableHlo.after_append, StableHlo.after_append, StableHlo.after_append, StableHlo.after_append]
  exact stretch4_propagated _ _ _
    ((stretch3_features _).trans ((stretch2_features _).trans ((stretch1_features _).trans (stretch0_features _))))
    ((stretch3_sources _).trans ((stretch2_sources _).trans ((stretch1_sources _).trans (stretch0_sources _))))
    ((stretch3_targets _).trans ((stretch2_targets _).trans ((stretch1_targets _).trans (stretch0_targets _))))
    (stretch3_normaliser _ _ ((stretch2_positive _).trans ((stretch1_positive _).trans (stretch0_positive _)))
      (stretch2_inv_sqrt _ _ (stretch1_guarded_degree _ _ (stretch0_positive_inner _) (stretch0_degree _) (stretch0_one _)))
      (stretch2_zero _))

end Cert.KernelIdeal.Prefix

end
-- ==== Proof.RefValue.lean ====
/-
  The reference at the exact values is the specification: its last matrix product sums over the 384 joined columns of the
  three hops' projections; a joined column is column k of the first, second or third projection according to its stretch
  of 128, so the sum splits into the three stretches, and each projection (a · wᵀ)[n,k] is the sum over j of a[n,j] · w[k,j].
-/
import proofs.«170589_j65274912964848_1_alg».proof.Proof.RefReadP
import proofs.«170589_j65274912964848_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-- Three 50000 x 128 arrays joined along the columns, read at column 0 + k: the first array at column k. -/
theorem cat0_apply (p0 p1 p2 : (⟨S50000x128, .f32⟩ : BufTy).Contents (Elt Ideal))
    (h : Shape.Concatenates [S50000x128, S50000x128, S50000x128] S50000x384 1) (n : Fin 50000) (k : Fin 128) :
    concatenate S50000x384 1 [⟨S50000x128, p0⟩, ⟨S50000x128, p1⟩, ⟨S50000x128, p2⟩] h
        (ix2 n (Cert.Spec.col 0 (by omega) k))
      = p0 (ix2 n k) :=
  concatenate_apply_piece (1 : Fin S50000x384.rank) [⟨S50000x128, p0⟩, ⟨S50000x128, p1⟩, ⟨S50000x128, p2⟩]
    h (ix2 n (Cert.Spec.col 0 (by omega) k))
    0 (by simp) S50000x128 p0 rfl rfl 0 rfl (ix2 n k)
    (fun b => match b with
      | ⟨0, _⟩ => fun _ => rfl
      | ⟨1, _⟩ => fun hb => absurd rfl hb)
    rfl

/-- Three 50000 x 128 arrays joined along the columns, read at column 128 + k: the second array at column k. -/
theorem cat1_apply (p0 p1 p2 : (⟨S50000x128, .f32⟩ : BufTy).Contents (Elt Ideal))
    (h : Shape.Concatenates [S50000x128, S50000x128, S50000x128] S50000x384 1) (n : Fin 50000) (k : Fin 128) :
    concatenate S50000x384 1 [⟨S50000x128, p0⟩, ⟨S50000x128, p1⟩, ⟨S50000x128, p2⟩] h
        (ix2 n (Cert.Spec.col 128 (by omega) k))
      = p1 (ix2 n k) :=
  concatenate_apply_piece (1 : Fin S50000x384.rank) [⟨S50000x128, p0⟩, ⟨S50000x128, p1⟩, ⟨S50000x128, p2⟩]
    h (ix2 n (Cert.Spec.col 128 (by omega) k))
    1 (by simp) S50000x128 p1 rfl rfl 128 rfl (ix2 n k)
    (fun b => match b with
      | ⟨0, _⟩ => fun _ => rfl
      | ⟨1, _⟩ => fun hb => absurd rfl hb)
    rfl

/-- Three 50000 x 128 arrays joined along the columns, read at column 256 + k: the third array at column k. -/
theorem cat2_apply (p0 p1 p2 : (⟨S50000x128, .f32⟩ : BufTy).Contents (Elt Ideal))
    (h : Shape.Concatenates [S50000x128, S50000x128, S50000x128] S50000x384 1) (n : Fin 50000) (k : Fin 128) :
    concatenate S50000x384 1 [⟨S50000x128, p0⟩, ⟨S50000x128, p1⟩, ⟨S50000x128, p2⟩] h
        (ix2 n (Cert.Spec.col 256 (by omega) k))
      = p2 (ix2 n k) :=
  concatenate_apply_piece (1 : Fin S50000x384.rank) [⟨S50000x128, p0⟩, ⟨S50000x128, p1⟩, ⟨S50000x128, p2⟩]
    h (ix2 n (Cert.Spec.col 256 (by omega) k))
    2 (by simp) S50000x128 p2 rfl rfl 256 rfl (ix2 n k)
    (fun b => match b with
      | ⟨0, _⟩ => fun _ => rfl
      | ⟨1, _⟩ => fun hb => absurd rfl hb)
    rfl

/-- A projection of the reference at (n, k): row n of the left operand against row k of the hop weight. -/
theorem v44_at (x0 : (⟨S50000x128, .f32⟩ : BufTy).Contents (Elt Ideal)) (x2 : (⟨S128x128, .f32⟩ : BufTy).Contents (Elt Ideal)) (n : Fin 50000) (k : Fin 128) :
    val_main_v44 (F := Ideal) x0 x2 (ix2 n k) = Cert.Spec.proj (N := 50000) x0 x2 n k := by
  refine (val_main_v44_apply x0 x2 (ix2 n k)).trans ?_
  generalize hx : x0 = px
  unfold Cert.Spec.proj
  refine Finset.sum_congr rfl fun j _ => congrArg₂ (· * ·) ?_ ?_
  · exact congrArg px (funext fun a => Fin.ext (by match a with | ⟨0, _⟩ => rfl | ⟨1, _⟩ => rfl))
  · refine (val_main_v43_apply x2 _).trans ?_
    exact congrArg x2 (funext fun a => Fin.ext (by match a with | ⟨0, _⟩ => rfl | ⟨1, _⟩ => rfl))

/-- A projection of the reference at (n, k): row n of the left operand against row k of the hop weight. -/
theorem v46_at (x0 : (⟨S50000x128, .f32⟩ : BufTy).Contents (Elt Ideal)) (x1 : (⟨S2x800000, .i32⟩ : BufTy).Contents (Elt Ideal)) (x3 : (⟨S128x128, .f32⟩ : BufTy).Contents (Elt Ideal)) (n : Fin 50000) (k : Fin 128) :
    val_main_v46 (F := Ideal) x0 x1 x3 (ix2 n k) = Cert.Spec.proj (N := 50000) (val_main_v42 (F := Ideal) x0 x1) x3 n k := by
  refine (val_main_v46_apply x0 x1 x3 (ix2 n k)).trans ?_
  generalize hx : val_main_v42 (F := Ideal) x0 x1 = px
  unfold Cert.Spec.proj
  refine Finset.sum_congr rfl fun j _ => congrArg₂ (· * ·) ?_ ?_
  · exact congrArg px (funext fun a => Fin.ext (by match a with | ⟨0, _⟩ => rfl | ⟨1, _⟩ => rfl))
  · refine (val_main_v45_apply x3 _).trans ?_
    exact congrArg x3 (funext fun a => Fin.ext (by match a with | ⟨0, _⟩ => rfl | ⟨1, _⟩ => rfl))

/-- A projection of the reference at (n, k): row n of the left operand against row k of the hop weight. -/
theorem v48_at (x0 : (⟨S50000x128, .f32⟩ : BufTy).Contents (Elt Ideal)) (x1 : (⟨S2x800000, .i32⟩ : BufTy).Contents (Elt Ideal)) (x4 : (⟨S128x128, .f32⟩ : BufTy).Contents (Elt Ideal)) (n : Fin 50000) (k : Fin 128) :
    val_main_v48 (F := Ideal) x0 x1 x4 (ix2 n k) = Cert.Spec.proj (N := 50000) (val_main_v42 (F := Ideal) x0 x1) x4 n k := by
  refine (val_main_v48_apply x0 x1 x4 (ix2 n k)).trans ?_
  generalize hx : val_main_v42 (F := Ideal) x0 x1 = px
  unfold Cert.Spec.proj
  refine Finset.sum_congr rfl fun j _ => congrArg₂ (· * ·) ?_ ?_
  · exact congrArg px (funext fun a => Fin.ext (by match a with | ⟨0, _⟩ => rfl | ⟨1, _⟩ => rfl))
  · refine (val_main_v47_apply x4 _).trans ?_
    exact congrArg x4 (funext fun a => Fin.ext (by match a with | ⟨0, _⟩ => rfl | ⟨1, _⟩ => rfl))

/-- The joined projections at column 0 + k of row n: the first projection at (n, k). -/
theorem v49_at0 (x0 : (⟨S50000x128, .f32⟩ : BufTy).Contents (Elt Ideal)) (x1 : (⟨S2x800000, .i32⟩ : BufTy).Contents (Elt Ideal)) (x2 x3 x4 : (⟨S128x128, .f32⟩ : BufTy).Contents (Elt Ideal)) (n : Fin 50000) (k : Fin 128) :
    val_main_v49 (F := Ideal) x0 x1 x2 x3 x4 (ix2 n (Cert.Spec.col 0 (by omega) k))
      = val_main_v44 (F := Ideal) x0 x2 (ix2 n k) := by
  unfold val_main_v49
  exact cat0_apply _ _ _ _ n k

/-- The joined projections at column 128 + k of row n: the second projection at (n, k). -/
theorem v49_at1 (x0 : (⟨S50000x128, .f32⟩ : BufTy).Contents (Elt Ideal)) (x1 : (⟨S2x800000, .i32⟩ : BufTy).Contents (Elt Ideal)) (x2 x3 x4 : (⟨S128x128, .f32⟩ : BufTy).Contents (Elt Ideal)) (n : Fin 50000) (k : Fin 128) :
    val_main_v49 (F := Ideal) x0 x1 x2 x3 x4 (ix2 n (Cert.Spec.col 128 (by omega) k))
      = val_main_v46 (F := Ideal) x0 x1 x3 (ix2 n k) := by
  unfold val_main_v49
  exact cat1_apply _ _ _ _ n k

/-- The joined projections at column 256 + k of row n: the third projection at (n, k). -/
theorem v49_at2 (x0 : (⟨S50000x128, .f32⟩ : BufTy).Contents (Elt Ideal)) (x1 : (⟨S2x800000, .i32⟩ : BufTy).Contents (Elt Ideal)) (x2 x3 x4 : (⟨S128x128, .f32⟩ : BufTy).Contents (Elt Ideal)) (n : Fin 50000) (k : Fin 128) :
    val_main_v49 (F := Ideal) x0 x1 x2 x3 x4 (ix2 n (Cert.Spec.col 256 (by omega) k))
      = val_main_v48 (F := Ideal) x0 x1 x4 (ix2 n k) := by
  unfold val_main_v49
  exact cat2_apply _ _ _ _ n k

/-- The reference's result, as a function of its arguments, is the specification of the node features, the propagated
    features (the value of its own host prefix, kept as one name) and the four weights. -/
theorem ref_out (x0 : (⟨S50000x128, .f32⟩ : BufTy).Contents (Elt Ideal)) (x1 : (⟨S2x800000, .i32⟩ : BufTy).Contents (Elt Ideal))
    (x2 x3 x4 : (⟨S128x128, .f32⟩ : BufTy).Contents (Elt Ideal)) (x5 : (⟨S64x384, .f32⟩ : BufTy).Contents (Elt Ideal)) :
    val_main_v51 (F := Ideal) x0 x1 x2 x3 x4 x5
      = Cert.Spec.out (N := 50000) x0 (val_main_v42 (F := Ideal) x0 x1) x2 x3 x4 x5 := by
  funext i
  obtain ⟨n, o, rfl⟩ : ∃ (n : Fin 50000) (o : Fin 64), i = ix2 n o := ⟨i 0, i 1, eq_ix2 i⟩
  refine Eq.trans ?_ (Cert.Spec.out_ix2 x0 (val_main_v42 (F := Ideal) x0 x1) x2 x3 x4 x5 n o).symm
  unfold Cert.Spec.outAt
  refine (val_main_v51_apply x0 x1 x2 x3 x4 x5 (ix2 n o)).trans ?_
  refine (Cert.Spec.sum_three_stretches _).trans ?_
  refine congrArg₂ (· + ·) (congrArg₂ (· + ·) ?_ ?_) ?_
  · refine Finset.sum_congr rfl fun k _ => congrArg₂ (· * ·) ?_ ?_
    · have e : lidx_main_v51 (ix2 n o) (Cert.Spec.col 0 (by omega) k) = ix2 n (Cert.Spec.col 0 (by omega) k) :=
        funext fun a => Fin.ext (by match a with | ⟨0, _⟩ => rfl | ⟨1, _⟩ => rfl)
      rw [e]
      exact (v49_at0 x0 x1 x2 x3 x4 n k).trans (v44_at x0 x2 n k)
    · refine (val_main_v50_apply x5 _).trans ?_
      exact congrArg x5 (funext fun a => Fin.ext (by match a with | ⟨0, _⟩ => rfl | ⟨1, _⟩ => rfl))
  · refine Finset.sum_congr rfl fun k _ => congrArg₂ (· * ·) ?_ ?_
    · have e : lidx_main_v51 (ix2 n o) (Cert.Spec.col 128 (by omega) k) = ix2 n (Cert.Spec.col 128 (by omega) k) :=
        funext fun a => Fin.ext (by match a with | ⟨0, _⟩ => rfl | ⟨1, _⟩ => rfl)
      rw [e]
      exact (v49_at1 x0 x1 x2 x3 x4 n k).trans (v46_at x0 x1 x3 n k)
    · refine (val_main_v50_apply x5 _).trans ?_
      exact congrArg x5 (funext fun a => Fin.ext (by match a with | ⟨0, _⟩ => rfl | ⟨1, _⟩ => rfl))
  · refine Finset.sum_congr rfl fun k _ => congrArg₂ (· * ·) ?_ ?_
    · have e : lidx_main_v51 (ix2 n o) (Cert.Spec.col 256 (by omega) k) = ix2 n (Cert.Spec.col 256 (by omega) k) :=
        funext fun a => Fin.ext (by match a with | ⟨0, _⟩ => rfl | ⟨1, _⟩ => rfl)
      rw [e]
      exact (v49_at2 x0 x1 x2 x3 x4 n k).trans (v48_at x0 x1 x4 n k)
    · refine (val_main_v50_apply x5 _).trans ?_
      exact congrArg x5 (funext fun a => Fin.ext (by match a with | ⟨0, _⟩ => rfl | ⟨1, _⟩ => rfl))

end Cert.ReferenceIdeal.RefValue

end
-- ==== Proof.RefPrefix.lean ====
/-
  The reference's propagated features as a value: the first sixty of its host operations, read from any contents of the
  buffers, leave in the propagated-features buffer the propagated-features stage of what the contents hold in the node
  features and the edge list. The sixty operations are five consecutive stretches (the in-degrees and where they are positive;
  the in-degree guarded by one; its inverse square root; the normaliser; the edge weights, the weighted gathered rows and their
  scatter-add into the targets); each stretch is read by itself from any contents, and the readings are composed.
-/
import proofs.«170589_j65274912964848_1_alg».proof.Proof.RefRunP
import proofs.«170589_j65274912964848_1_alg».proof.Proof.RefReadP
import Idealize.ShloMosaic.Lib.StableHlo.Run
import Idealize.ShloMosaic.Lib.Pipeline.Frame

noncomputable section

namespace Cert.ReferenceIdeal.RefPrefix

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-! ## The five stretches -/

/-- Operations 1 to 17: the edge list's two rows, the in-degrees, where they are positive, the constant one. -/
abbrev stretch0 : List (HloOp τ sig (Elt Ideal)) := List.take 17 (ops (F := Ideal))
/-- Operations 18 to 20: the in-degree where positive, one elsewhere. -/
abbrev stretch1 : List (HloOp τ sig (Elt Ideal)) := List.take 3 (List.drop 17 (ops (F := Ideal)))
/-- Operations 21 and 22: the inverse square root, the constant zero. -/
abbrev stretch2 : List (HloOp τ sig (Elt Ideal)) := List.take 2 (List.drop 3 (List.drop 17 (ops (F := Ideal))))
/-- Operations 23 to 25: the normaliser. -/
abbrev stretch3 : List (HloOp τ sig (Elt Ideal)) := List.take 3 (List.drop 2 (List.drop 3 (List.drop 17 (ops (F := Ideal)))))
/-- Operations 26 to 60: the edge weights, the weighted gathered rows, their scatter-add into the targets. -/
abbrev stretch4 : List (HloOp τ sig (Elt Ideal)) := List.take 35 (List.drop 3 (List.drop 2 (List.drop 3 (List.drop 17 (ops (F := Ideal))))))

/-- The first a + b operations of a line are its first a, then the first b of the rest. -/
theorem after_take_add (l : List (HloOp τ sig (Elt Ideal))) (a b : Nat) (W : Valuation τ sig (Elt Ideal)) :
    after (List.take (a + b) l) W = after (List.take b (List.drop a l)) (after (List.take a l) W) := by
  rw [List.take_add, StableHlo.after_append]

/-! ## First stretch -/

set_option maxHeartbeats 400000 in
/-- The source row of the edge list, flattened. -/
theorem stretch0_sources (W : Valuation τ sig (Elt Ideal)) :
    after stretch0 W (Proc.devRef .tc main_v1) = val_main_v1 (F := Ideal) (W (Proc.devRef .tc main_arg1)) := by
  simp only [stretch0, ops, List.take_succ_cons, List.take_zero, List.drop_succ_cons, List.drop_zero]
  after_results_simp
  rfl

set_option maxHeartbeats 400000 in
/-- The target row of the edge list, flattened. -/
theorem stretch0_targets (W : Valuation τ sig (Elt Ideal)) :
    after stretch0 W (Proc.devRef .tc main_v3) = val_main_v3 (F := Ideal) (W (Proc.devRef .tc main_arg1)) := by
  simp only [stretch0, ops, List.take_succ_cons, List.take_zero, List.drop_succ_cons, List.drop_zero]
  after_results_simp
  rfl

set_option maxHeartbeats 400000 in
/-- The in-degrees: ones scatter-added at the targets into zeros. -/
theorem stretch0_degree (W : Valuation τ sig (Elt Ideal)) :
    after stretch0 W (Proc.devRef .tc main_v7) = val_main_v7 (F := Ideal) (W (Proc.devRef .tc main_arg1)) := by
  simp only [stretch0, ops, List.take_succ_cons, List.take_zero, List.drop_succ_cons, List.drop_zero]
  after_results_simp
  rfl

set_option maxHeartbeats 400000 in
/-- Where the in-degree is positive (the outer test). -/
theorem stretch0_positive (W : Valuation τ sig (Elt Ideal)) :
    after stretch0 W (Proc.devRef .tc main_v9) = val_main_v9 (F := Ideal) (W (Proc.devRef .tc main_arg1)) := by
  simp only [stretch0, ops, List.take_succ_cons, List.take_zero, List.drop_succ_cons, List.drop_zero]
  after_results_simp
  rfl

set_option maxHeartbeats 400000 in
/-- Where the in-degree is positive (the inner test). -/
theorem stretch0_positive_inner (W : Valuation τ sig (Elt Ideal)) :
    after stretch0 W (Proc.devRef .tc main_v11) = val_main_v11 (F := Ideal) (W (Proc.devRef .tc main_arg1)) := by
  simp only [stretch0, ops, List.take_succ_cons, List.take_zero, List.drop_succ_cons, List.drop_zero]
  after_results_simp
  rfl

set_option maxHeartbeats 400000 in
/-- The constant one that replaces a zero in-degree under the root. -/
theorem stretch0_one (W : Valuation τ sig (Elt Ideal)) :
    after stretch0 W (Proc.devRef .tc main_cst_3) = val_main_cst_3 (F := Ideal) := by
  simp only [stretch0, ops, List.take_succ_cons, List.take_zero, List.drop_succ_cons, List.drop_zero]
  after_results_simp
  rfl

set_option maxHeartbeats 400000 in
/-- The first stretch does not write the node features. -/
theorem stretch0_features (W : Valuation τ sig (Elt Ideal)) :
    after stretch0 W (Proc.devRef .tc main_arg0) = W (Proc.devRef .tc main_arg0) := by
  simp only [stretch0, ops, List.take_succ_cons, List.take_zero, List.drop_succ_cons, List.drop_zero]
  after_results_simp

/-! ## Second stretch -/

set_option maxHeartbeats 400000 in
/-- The guarded in-degree, from the degree, the inner test and the constant one. -/
theorem stretch1_guarded_degree (W : Valuation τ sig (Elt Ideal)) (x1 : (⟨S2x800000, .i32⟩ : BufTy).Contents (Elt Ideal))
    (h11 : W (Proc.devRef .tc main_v11) = val_main_v11 (F := Ideal) x1) (h7 : W (Proc.devRef .tc main_v7) = val_main_v7 (F := Ideal) x1)
    (hc : W (Proc.devRef .tc main_cst_3) = val_main_cst_3 (F := Ideal)) :
    after stretch1 W (Proc.devRef .tc main_v12) = val_main_v12 (F := Ideal) x1 := by
  simp only [stretch1, ops, List.take_succ_cons, List.take_zero, List.drop_succ_cons, List.drop_zero]
  after_results_simp
  simp only [TRef.toBuf, TRef.ofBuf, cast_eq]
  rw [h11, h7, hc]
  rfl

set_option maxHeartbeats 400000 in
/-- The second stretch does not write the sources. -/
theorem stretch1_sources (W : Valuation τ sig (Elt Ideal)) :
    after stretch1 W (Proc.devRef .tc main_v1) = W (Proc.devRef .tc main_v1) := by
  simp only [stretch1, ops, List.take_succ_cons, List.take_zero, List.drop_succ_cons, List.drop_zero]
  after_results_simp

set_option maxHeartbeats 400000 in
/-- The second stretch does not write the targets. -/
theorem stretch1_targets (W : Valuation τ sig (Elt Ideal)) :
    after stretch1 W (Proc.devRef .tc main_v3) = W (Proc.devRef .tc main_v3) := by
  simp only [stretch1, ops, List.take_succ_cons, List.take_zero, List.drop_succ_cons, List.drop_zero]
  after_results_simp

set_option maxHeartbeats 400000 in
/-- The second stretch does not write the outer test. -/
theorem stretch1_positive (W : Valuation τ sig (Elt Ideal)) :
    after stretch1 W (Proc.devRef .tc main_v9) = W (Proc.devRef .tc main_v9) := by
  simp only [stretch1, ops, List.take_succ_cons, List.take_zero, List.drop_succ_cons, List.drop_zero]
  after_results_simp

set_option maxHeartbeats 400000 in
/-- The second stretch does not write the node features. -/
theorem stretch1_features (W : Valuation τ sig (Elt Ideal)) :
    after stretch1 W (Proc.devRef .tc main_arg0) = W (Proc.devRef .tc main_arg0) := by
  simp only [stretch1, ops, List.take_succ_cons, List.take_zero, List.drop_succ_cons, List.drop_zero]
  after_results_simp

/-! ## Third stretch -/

set_option maxHeartbeats 400000 in
/-- The inverse square root of the guarded in-degree. -/
theorem stretch2_inv_sqrt (W : Valuation τ sig (Elt Ideal)) (x1 : (⟨S2x800000, .i32⟩ : BufTy).Contents (Elt Ideal))
    (h12 : W (Proc.devRef .tc main_v12) = val_main_v12 (F := Ideal) x1) :
    after stretch2 W (Proc.devRef .tc main_v13) = val_main_v13 (F := Ideal) x1 := by
  simp only [stretch2, ops, List.take_succ_cons, List.take_zero, List.drop_succ_cons, List.drop_zero]
  after_results_simp
  rw [h12]
  rfl

set_option maxHeartbeats 400000 in
/-- The constant zero that stands where the in-degree is not positive. -/
theorem stretch2_zero (W : Valuation τ sig (Elt Ideal)) :
    after stretch2 W (Proc.devRef .tc main_cst_4) = val_main_cst_4 (F := Ideal) := by
  simp only [stretch2, ops, List.take_succ_cons, List.take_zero, List.drop_succ_cons, List.drop_zero]
  after_results_simp
  rfl

set_option maxHeartbeats 400000 in
/-- The third stretch does not write the sources. -/
theorem stretch2_sources (W : Valuation τ sig (Elt Ideal)) :
    after stretch2 W (Proc.devRef .tc main_v1) = W (Proc.devRef .tc main_v1) := by
  simp only [stretch2, ops, List.take_succ_cons, List.take_zero, List.drop_succ_cons, List.drop_zero]
  after_results_simp

set_option maxHeartbeats 400000 in
/-- The third stretch does not write the targets. -/
theorem stretch2_targets (W : Valuation τ sig (Elt Ideal)) :
    after stretch2 W (Proc.devRef .tc main_v3) = W (Proc.devRef .tc main_v3) := by
  simp only [stretch2, ops, List.take_succ_cons, List.take_zero, List.drop_succ_cons, List.drop_zero]
  after_results_simp

set_option maxHeartbeats 400000 in
/-- The third stretch does not write the outer test. -/
theorem stretch2_positive (W : Valuation τ sig (Elt Ideal)) :
    after stretch2 W (Proc.devRef .tc main_v9) = W (Proc.devRef .tc main_v9) := by
  simp only [stretch2, ops, List.take_succ_cons, List.take_zero, List.drop_succ_cons, List.drop_zero]
  after_results_simp

set_option maxHeartbeats 400000 in
/-- The third stretch does not write the node features. -/
theorem stretch2_features (W : Valuation τ sig (Elt Ideal)) :
    after stretch2 W (Proc.devRef .tc main_arg0) = W (Proc.devRef .tc main_arg0) := by
  simp only [stretch2, ops, List.take_succ_cons, List.take_zero, List.drop_succ_cons, List.drop_zero]
  after_results_simp

/-! ## Fourth stretch -/

set_option maxHeartbeats 400000 in
/-- The normaliser, from the outer test, the inverse root and the constant zero. -/
theorem stretch3_normaliser (W : Valuation τ sig (Elt Ideal)) (x1 : (⟨S2x800000, .i32⟩ : BufTy).Contents (Elt Ideal))
    (h9 : W (Proc.devRef .tc main_v9) = val_main_v9 (F := Ideal) x1) (h13 : W (Proc.devRef .tc main_v13) = val_main_v13 (F := Ideal) x1)
    (hc : W (Proc.devRef .tc main_cst_4) = val_main_cst_4 (F := Ideal)) :
    after stretch3 W (Proc.devRef .tc main_v14) = val_main_v14 (F := Ideal) x1 := by
  simp only [stretch3, ops, List.take_succ_cons, List.take_zero, List.drop_succ_cons, List.drop_zero]
  after_results_simp
  simp only [TRef.toBuf, TRef.ofBuf, cast_eq]
  rw [h9, h13, hc]
  rfl

set_option maxHeartbeats 400000 in
/-- The fourth stretch does not write the sources. -/
theorem stretch3_sources (W : Valuation τ sig (Elt Ideal)) :
    after stretch3 W (Proc.devRef .tc main_v1) = W (Proc.devRef .tc main_v1) := by
  simp only [stretch3, ops, List.take_succ_cons, List.take_zero, List.drop_succ_cons, List.drop_zero]
  after_results_simp

set_option maxHeartbeats 400000 in
/-- The fourth stretch does not write the targets. -/
theorem stretch3_targets (W : Valuation τ sig (Elt Ideal)) :
    after stretch3 W (Proc.devRef .tc main_v3) = W (Proc.devRef .tc main_v3) := by
  simp only [stretch3, ops, List.take_succ_cons, List.take_zero, List.drop_succ_cons, List.drop_zero]
  after_results_simp

set_option maxHeartbeats 400000 in
/-- The fourth stretch does not write the node features. -/
theorem stretch3_features (W : Valuation τ sig (Elt Ideal)) :
    after stretch3 W (Proc.devRef .tc main_arg0) = W (Proc.devRef .tc main_arg0) := by
  simp only [stretch3, ops, List.take_succ_cons, List.take_zero, List.drop_succ_cons, List.drop_zero]
  after_results_simp

/-! ## Fifth stretch -/

set_option maxHeartbeats 1000000 in
/-- The propagated features, from the node features, the two rows of the edge list and the normaliser: an edge's weight is
    the product of the normaliser's entries at its two ends, the row gathered at its source is scaled by the weight and
    scatter-added at its target into zeros. -/
theorem stretch4_propagated (W : Valuation τ sig (Elt Ideal)) (x0 : (⟨S50000x128, .f32⟩ : BufTy).Contents (Elt Ideal)) (x1 : (⟨S2x800000, .i32⟩ : BufTy).Contents (Elt Ideal))
    (h0 : W (Proc.devRef .tc main_arg0) = x0) (h1 : W (Proc.devRef .tc main_v1) = val_main_v1 (F := Ideal) x1)
    (h3 : W (Proc.devRef .tc main_v3) = val_main_v3 (F := Ideal) x1) (h14 : W (Proc.devRef .tc main_v14) = val_main_v14 (F := Ideal) x1) :
    after stretch4 W (Proc.devRef .tc main_v42) = val_main_v42 (F := Ideal) x0 x1 := by
  simp only [stretch4, ops, List.take_succ_cons, List.take_zero, List.drop_succ_cons, List.drop_zero]
  after_results_simp
  rw [h0, h1, h3, h14]
  rfl

/-! ## The five stretches in a row -/

set_option maxHeartbeats 400000 in
/-- The first sixty operations, from any contents, leave the propagated-features stage of the node features and the edge
    list in the propagated-features buffer. -/
theorem pre_px (W : Valuation τ sig (Elt Ideal)) :
    after (List.take 60 (ops (F := Ideal))) W (Proc.devRef .tc main_v42)
      = val_main_v42 (F := Ideal) (W (Proc.devRef .tc main_arg0)) (W (Proc.devRef .tc main_arg1)) := by
  rw [show (60 : Nat) = 17 + (3 + (2 + (3 + 35))) from rfl, after_take_add, after_take_add, after_take_add, after_take_add]
  exact stretch4_propagated _ _ _
    ((stretch3_features _).trans ((stretch2_features _).trans ((stretch1_features _).trans (stretch0_features _))))
    ((stretch3_sources _).trans ((stretch2_sources _).trans ((stretch1_sources _).trans (stretch0_sources _))))
    ((stretch3_targets _).trans ((stretch2_targets _).trans ((stretch1_targets _).trans (stretch0_targets _))))
    (stretch3_normaliser _ _ ((stretch2_positive _).trans ((stretch1_positive _).trans (stretch0_positive _)))
      (stretch2_inv_sqrt _ _ (stretch1_guarded_degree _ _ (stretch0_positive_inner _) (stretch0_degree _) (stretch0_one _)))
      (stretch2_zero _))

end Cert.ReferenceIdeal.RefPrefix

end
-- ==== Proof.RefRun.lean ====
/-
  The reference program's run with its result named: every execution ends with the result array at the reference's last
  stage of the launch contents of the six arguments, and the arguments unchanged. The fold of the 69 host operations is read
  in three stretches: the 60 operations up to the propagated features, the three transposed weights and projections, and the
  join of the projections with the read-out product.
-/
import proofs.«170589_j65274912964848_1_alg».proof.Proof.RefRunP
import proofs.«170589_j65274912964848_1_alg».proof.Proof.RefReadP
import proofs.«170589_j65274912964848_1_alg».proof.Proof.RefPrefix
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The last three operations over any contents: the read-out product of the joined projections. -/
theorem tail_v51 (W : Valuation τ sig (Elt Ideal)) :
    after ((ops (F := Ideal)).drop 66) W (Proc.devRef .tc main_v51)
      = (Host.dotGeneral (F := Ideal) (φ₁ := .f32) (φ₂ := .f32) dot_S50000x384_S384x64_S50000x64_1_0_0_1_n_n none
          (concatenate S50000x384 1 [⟨S50000x128, (W (Proc.devRef .tc main_v44) : (⟨S50000x128, .f32⟩ : BufTy).Contents (Elt Ideal))⟩,
            ⟨S50000x128, (W (Proc.devRef .tc main_v46) : (⟨S50000x128, .f32⟩ : BufTy).Contents (Elt Ideal))⟩,
            ⟨S50000x128, (W (Proc.devRef .tc main_v48) : (⟨S50000x128, .f32⟩ : BufTy).Contents (Elt Ideal))⟩]
            concatenates_S50000x128_S50000x128_S50000x128_S50000x384_d1 : (⟨S50000x384, .f32⟩ : BufTy).Contents (Elt Ideal))
          (transpose S384x64 [1, 0] (W (Proc.devRef .tc main_arg5) : (⟨S64x384, .f32⟩ : BufTy).Contents (Elt Ideal)) transposes_S64x384_S384x64_1_0 : (⟨S384x64, .f32⟩ : BufTy).Contents (Elt Ideal))
          : (⟨S50000x64, .f32⟩ : BufTy).Contents (Elt Ideal)) := by
  show after [_, _, _] W _ = _
  after_results_simp
  rfl

/-- The middle stretch over any contents: a projection is the product of its left operand with the transposed hop weight. -/
theorem mid_v44 (W : Valuation τ sig (Elt Ideal)) :
    after (((ops (F := Ideal)).drop 60).take 6) W (Proc.devRef .tc main_v44)
      = (Host.dotGeneral (F := Ideal) (φ₁ := .f32) (φ₂ := .f32) dot_S50000x128_S128x128_S50000x128_1_0_0_1_n_n none
          (W (Proc.devRef .tc main_arg0) : (⟨S50000x128, .f32⟩ : BufTy).Contents (Elt Ideal))
          (transpose S128x128 [1, 0] (W (Proc.devRef .tc main_arg2) : (⟨S128x128, .f32⟩ : BufTy).Contents (Elt Ideal)) transposes_S128x128_S128x128_1_0 : (⟨S128x128, .f32⟩ : BufTy).Contents (Elt Ideal))
          : (⟨S50000x128, .f32⟩ : BufTy).Contents (Elt Ideal)) := by
  show after [_, _, _, _, _, _] W _ = _
  after_results_simp <;> rfl

/-- The middle stretch over any contents: a projection is the product of its left operand with the transposed hop weight. -/
theorem mid_v46 (W : Valuation τ sig (Elt Ideal)) :
    after (((ops (F := Ideal)).drop 60).take 6) W (Proc.devRef .tc main_v46)
      = (Host.dotGeneral (F := Ideal) (φ₁ := .f32) (φ₂ := .f32) dot_S50000x128_S128x128_S50000x128_1_0_0_1_n_n none
          (W (Proc.devRef .tc main_v42) : (⟨S50000x128, .f32⟩ : BufTy).Contents (Elt Ideal))
          (transpose S128x128 [1, 0] (W (Proc.devRef .tc main_arg3) : (⟨S128x128, .f32⟩ : BufTy).Contents (Elt Ideal)) transposes_S128x128_S128x128_1_0 : (⟨S128x128, .f32⟩ : BufTy).Contents (Elt Ideal))
          : (⟨S50000x128, .f32⟩ : BufTy).Contents (Elt Ideal)) := by
  show after [_, _, _, _, _, _] W _ = _
  after_results_simp <;> rfl

/-- The middle stretch over any contents: a projection is the product of its left operand with the transposed hop weight. -/
theorem mid_v48 (W : Valuation τ sig (Elt Ideal)) :
    after (((ops (F := Ideal)).drop 60).take 6) W (Proc.devRef .tc main_v48)
      = (Host.dotGeneral (F := Ideal) (φ₁ := .f32) (φ₂ := .f32) dot_S50000x128_S128x128_S50000x128_1_0_0_1_n_n none
          (W (Proc.devRef .tc main_v42) : (⟨S50000x128, .f32⟩ : BufTy).Contents (Elt Ideal))
          (transpose S128x128 [1, 0] (W (Proc.devRef .tc main_arg4) : (⟨S128x128, .f32⟩ : BufTy).Contents (Elt Ideal)) transposes_S128x128_S128x128_1_0 : (⟨S128x128, .f32⟩ : BufTy).Contents (Elt Ideal))
          : (⟨S50000x128, .f32⟩ : BufTy).Contents (Elt Ideal)) := by
  show after [_, _, _, _, _, _] W _ = _
  after_results_simp <;> rfl

/-- The middle stretch leaves the read-out weight as it was. -/
theorem mid_arg5 (W : Valuation τ sig (Elt Ideal)) :
    after (((ops (F := Ideal)).drop 60).take 6) W (Proc.devRef .tc main_arg5) = W (Proc.devRef .tc main_arg5) := by
  show after [_, _, _, _, _, _] W _ = _
  after_results_simp <;> rfl

/-- The first stretch leaves argument 0 as it was. -/
theorem pre_arg0 (W : Valuation τ sig (Elt Ideal)) :
    after ((ops (F := Ideal)).take 60) W (Proc.devRef .tc main_arg0) = W (Proc.devRef .tc main_arg0) := by
  show after [_, _, _, _, _, _, _, _, _, _, _, _, _, _, _, _, _, _, _, _, _, _, _, _, _, _, _, _, _, _, _, _, _, _, _, _, _, _, _, _, _, _, _, _, _, _, _, _, _, _, _, _, _, _, _, _, _, _, _, _] W _ = _
  after_results_simp <;> rfl

/-- The first stretch leaves argument 2 as it was. -/
theorem pre_arg2 (W : Valuation τ sig (Elt Ideal)) :
    after ((ops (F := Ideal)).take 60) W (Proc.devRef .tc main_arg2) = W (Proc.devRef .tc main_arg2) := by
  show after [_, _, _, _, _, _, _, _, _, _, _, _, _, _, _, _, _, _, _, _, _, _, _, _, _, _, _, _, _, _, _, _, _, _, _, _, _, _, _, _, _, _, _, _, _, _, _, _, _, _, _, _, _, _, _, _, _, _, _, _] W _ = _
  after_results_simp <;> rfl

/-- The first stretch leaves argument 3 as it was. -/
theorem pre_arg3 (W : Valuation τ sig (Elt Ideal)) :
    after ((ops (F := Ideal)).take 60) W (Proc.devRef .tc main_arg3) = W (Proc.devRef .tc main_arg3) := by
  show after [_, _, _, _, _, _, _, _, _, _, _, _, _, _, _, _, _, _, _, _, _, _, _, _, _, _, _, _, _, _, _, _, _, _, _, _, _, _, _, _, _, _, _, _, _, _, _, _, _, _, _, _, _, _, _, _, _, _, _, _] W _ = _
  after_results_simp <;> rfl

/-- The first stretch leaves argument 4 as it was. -/
theorem pre_arg4 (W : Valuation τ sig (Elt Ideal)) :
    after ((ops (F := Ideal)).take 60) W (Proc.devRef .tc main_arg4) = W (Proc.devRef .tc main_arg4) := by
  show after [_, _, _, _, _, _, _, _, _, _, _, _, _, _, _, _, _, _, _, _, _, _, _, _, _, _, _, _, _, _, _, _, _, _, _, _, _, _, _, _, _, _, _, _, _, _, _, _, _, _, _, _, _, _, _, _, _, _, _, _] W _ = _
  after_results_simp <;> rfl

/-- The first stretch leaves argument 5 as it was. -/
theorem pre_arg5 (W : Valuation τ sig (Elt Ideal)) :
    after ((ops (F := Ideal)).take 60) W (Proc.devRef .tc main_arg5) = W (Proc.devRef .tc main_arg5) := by
  show after [_, _, _, _, _, _, _, _, _, _, _, _, _, _, _, _, _, _, _, _, _, _, _, _, _, _, _, _, _, _, _, _, _, _, _, _, _, _, _, _, _, _, _, _, _, _, _, _, _, _, _, _, _, _, _, _, _, _, _, _] W _ = _
  after_results_simp <;> rfl

/-- The 69 operations are the three stretches in a row. -/
theorem ops_split : (ops (F := Ideal)) = (ops (F := Ideal)).take 60 ++ (((ops (F := Ideal)).drop 60).take 6 ++ (ops (F := Ideal)).drop 66) := rfl

/-- The fold over all the operations is the fold over the stretches in turn. -/
theorem after_split (V : Valuation τ sig (Elt Ideal)) :
    after (ops (F := Ideal)) V
      = after ((ops (F := Ideal)).drop 66) (after (((ops (F := Ideal)).drop 60).take 6) (after ((ops (F := Ideal)).take 60) V)) :=
  (congrArg (fun l => after l V) ops_split).trans ((StableHlo.after_append _ _ V).trans (StableHlo.after_append _ _ _))

/-- The fold of the reference's operations over the launch contents, read at the result, is the last stage of the arguments. -/
theorem result_eq (m : (ℓ : Loc nD τ sig) → Buf (Elt Ideal) ℓ) (c : Dev nD) :
    after (ops (F := Ideal)) (launchContents m c) (Proc.devRef .tc main_v51)
      = val_main_v51 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  refine (congrFun (after_split (launchContents m c)) (Proc.devRef .tc main_v51)).trans ?_
  refine (tail_v51 _).trans ?_
  rw [mid_v44, mid_v46, mid_v48, mid_arg5, pre_arg0, pre_arg2, pre_arg3, pre_arg4, pre_arg5,
    Cert.ReferenceIdeal.RefPrefix.pre_px]
  unfold val_main_v51 val_main_v49 val_main_v50 val_main_v44 val_main_v46 val_main_v48 val_main_v43 val_main_v45 val_main_v47
  rfl

/-- No operation writes argument 0. -/
theorem kept0 (m : (ℓ : Loc nD τ sig) → Buf (Elt Ideal) ℓ) (c : Dev nD) :
    after (ops (F := Ideal)) (launchContents m c) (Proc.devRef .tc main_arg0) = m ((c.tc : Thread nD τ).loc main_arg0) := by
  after_results_simp <;> rfl

/-- No operation writes argument 1. -/
theorem kept1 (m : (ℓ : Loc nD τ sig) → Buf (Elt Ideal) ℓ) (c : Dev nD) :
    after (ops (F := Ideal)) (launchContents m c) (Proc.devRef .tc main_arg1) = m ((c.tc : Thread nD τ).loc main_arg1) := by
  after_results_simp <;> rfl

/-- No operation writes argument 2. -/
theorem kept2 (m : (ℓ : Loc nD τ sig) → Buf (Elt Ideal) ℓ) (c : Dev nD) :
    after (ops (F := Ideal)) (launchContents m c) (Proc.devRef .tc main_arg2) = m ((c.tc : Thread nD τ).loc main_arg2) := by
  after_results_simp <;> rfl

/-- No operation writes argument 3. -/
theorem kept3 (m : (ℓ : Loc nD τ sig) → Buf (Elt Ideal) ℓ) (c : Dev nD) :
    after (ops (F := Ideal)) (launchContents m c) (Proc.devRef .tc main_arg3) = m ((c.tc : Thread nD τ).loc main_arg3) := by
  after_results_simp <;> rfl

/-- No operation writes argument 4. -/
theorem kept4 (m : (ℓ : Loc nD τ sig) → Buf (Elt Ideal) ℓ) (c : Dev nD) :
    after (ops (F := Ideal)) (launchContents m c) (Proc.devRef .tc main_arg4) = m ((c.tc : Thread nD τ).loc main_arg4) := by
  after_results_simp <;> rfl

/-- No operation writes argument 5. -/
theorem kept5 (m : (ℓ : Loc nD τ sig) → Buf (Elt Ideal) ℓ) (c : Dev nD) :
    after (ops (F := Ideal)) (launchContents m c) (Proc.devRef .tc main_arg5) = m ((c.tc : Thread nD τ).loc main_arg5) := by
  after_results_simp <;> rfl

/-- The reference program's run: the result at the last stage of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51)
        = val_main_v51 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v51).trans (result_eq m c),
      (h c main_arg0).trans (kept0 m c), (h c main_arg1).trans (kept1 m c), (h c main_arg2).trans (kept2 m c),
      (h c main_arg3).trans (kept3 m c), (h c main_arg4).trans (kept4 m c), (h c main_arg5).trans (kept5 m c)⟩)
    (run_raw m ρ)

end Cert.ReferenceIdeal.RefRun

end
-- ==== Proof.lean ====
/-
  A fused three-hop graph projection against its plain reference, at the exact values.

  Both programs first compute, by the same chain of host operations on the node features x and the edge list, the
  propagated features px (degree-normalised sums of neighbours' rows). The kernel then computes, one tile of 5000 rows at a
  time,
      (x·W0ᵀ)·Wfc₀ᵀ + (px·W1ᵀ)·Wfc₁ᵀ + (px·W2ᵀ)·Wfc₂ᵀ
  with Wfc₀, Wfc₁, Wfc₂ the three stretches of 128 columns of the read-out weight, while the reference joins the three
  projections along the columns and multiplies once by Wfcᵀ. On the extended reals both are the function `Cert.Spec.out`:
  a sum over the 384 joined columns is the sum of its three stretches (associativity and commutativity of addition only,
  so no finiteness of the inputs is needed), every change of float format is the identity, and a matrix product into a zero
  accumulator is the plain sum of products. The modules: `Spec` (the function and the three-stretch identity),
  `TilePayload` (one tile of the kernel's body is the function on the tile), `TileToArray` (the ten tiles are the function on
  the whole arrays), `PrefixValue` (the kernel's propagated features are the reference's stage of the same name),
  `RefValue` (the reference's last stage is the function) and `RefRun` (the reference's run ends at its last stage).
-/
import proofs.«170589_j65274912964848_1_alg».proof.Defs
import proofs.«170589_j65274912964848_1_alg».proof.Proof.Gen.Kernel
import proofs.«170589_j65274912964848_1_alg».proof.Proof.Gen.Kernel.Frame
import proofs.«170589_j65274912964848_1_alg».proof.Proof.Gen.KernelIdeal
import proofs.«170589_j65274912964848_1_alg».proof.Proof.Gen.KernelIdeal.Frame
import proofs.«170589_j65274912964848_1_alg».proof.Proof.Gen.ReferenceIdeal
import proofs.«170589_j65274912964848_1_alg».proof.Proof.Gen.Pre_finite_inputs
import proofs.«170589_j65274912964848_1_alg».proof.Proof.TileToArray
import proofs.«170589_j65274912964848_1_alg».proof.Proof.PrefixValue
import proofs.«170589_j65274912964848_1_alg».proof.Proof.RefValue
import proofs.«170589_j65274912964848_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation of the kernel. -/
theorem preserves : Cert.preserves_Kernel_KernelIdeal := trivial

/-- From memories that agree on the six arguments both programs end with the result array at `Cert.Spec.out` of the node
    features, the propagated features (the reference's stage of that name, which the kernel's host prefix computes too) and
    the four weights. -/
theorem algebraic : Cert.algebraic_KernelIdeal_ReferenceIdeal := by
  intro m ρ m' ρ' _ hagree
  refine ⟨fun c => Cert.Spec.out (N := 50000) (m ((c.tc : Thread Cert.KernelIdeal.nD Cert.KernelIdeal.τ).loc Cert.KernelIdeal.main_arg0))
      (Cert.ReferenceIdeal.ReadP.val_main_v42 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (Cert.KernelIdeal.Whole.run m ρ)
    rw [Cert.KernelIdeal.Prefix.px_eq m c]
  · refine (θ_run Cert.ReferenceIdeal.defs _ _).mono (fun _ h c => ⟨(h c).1.trans ?_, (h c).2⟩)
      (Cert.ReferenceIdeal.RefRun.run m' ρ')
    rw [Cert.ReferenceIdeal.RefValue.ref_out, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
